-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S4096x8192 : Shape := ⟨2, ![4096, 8192]⟩
abbrev S8192 : Shape := ⟨1, ![8192]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S4096x2 .f32) (main_arg1 : FVec F S4096x8192 .f32) (main_arg2 : FVec F S8192 .f32) (main_arg3 : FVec F S8192 .f32) (main_arg4 : FVec F S8192 .f32) (main_arg5 : FVec F S8192 .f32) : IVec S_ 1 :=
  let main_v0 : FVec F S4096x2 .f32 := Host.absf main_arg0
  let main_cst : FVec F S_ .f32 := constant S_ .f32 0x7F800000#32
  let main_v1 : FVec F S4096x2 .f32 := broadcastInDim S4096x2 ![] bcast_S_S4096x2 main_cst
  let main_v2 : IVec S4096x2 1 := cmpf .olt main_v0 main_v1
  let main_c : IVec S_ 1 := constantI S_ 1 1#1
  let main_v3 : IVec S_ 1 := (fun x v => Host.reduce IntOp.andi x v reducesTo_S4096x2_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_v13 main_v16
-- ==== Kernel.lean ====
abbrev S4096x2 : Shape := ⟨2, ![4096, 2]⟩
abbrev S4096x8192 : Shape := ⟨2, ![4096, 8192]⟩
abbrev S8192 : Shape := ⟨1, ![8192]⟩
abbrev S4096 : Shape := ⟨1, ![4096]⟩
abbrev S1x8192 : Shape := ⟨2, ![1, 8192]⟩
abbrev S256x8192 : Shape := ⟨2, ![256, 8192]⟩
abbrev S256x2 : Shape := ⟨2, ![256, 2]⟩
abbrev S256 : Shape := ⟨1, ![256]⟩
abbrev S256x1 : Shape := ⟨2, ![256, 1]⟩

abbrev nBuf : Space → Nat
  | .hbm => 15
  | .vmem => 8
  | .smem => 0
  | _ => 0

abbrev bufTy : (tb : Table) → Fin (tcTables nBuf tb) → BufTy
  | .hbm, ⟨0, _⟩ => ⟨S4096x2, .f32⟩
  | .hbm, ⟨1, _⟩ => ⟨S4096x8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S4096, .f32⟩
  | .hbm, ⟨7, _⟩ => ⟨S4096, .f32⟩
  | .hbm, ⟨8, _⟩ => ⟨S8192, .f32⟩
  | .hbm, ⟨9, _⟩ => ⟨S4096, .f32⟩
  | .hbm, ⟨10, _⟩ => ⟨S4096, .f32⟩
  | .hbm, ⟨11, _⟩ => ⟨S8192, .f32⟩
  | .hbm, ⟨12, _⟩ => ⟨S1x8192, .f32⟩
  | .hbm, ⟨13, _⟩ => ⟨S1x8192, .f32⟩
  | .hbm, ⟨14, _⟩ => ⟨S4096x8192, .f32⟩
  | .local _ .vmem, ⟨0, _⟩ => ⟨S256x8192, .f32⟩
  | .local _ .vmem, ⟨1, _⟩ => ⟨S256x8192, .f32⟩
  | .local _ .vmem, ⟨2, _⟩ => ⟨S256x2, .f32⟩
  | .local _ .vmem, ⟨3, _⟩ => ⟨S256x2, .f32⟩
  | .local _ .vmem, ⟨4, _⟩ => ⟨S1x8192, .f32⟩
  | .local _ .vmem, ⟨5, _⟩ => ⟨S1x8192, .f32⟩
  | .local _ .vmem, ⟨6, _⟩ => ⟨S256x8192, .f32⟩
  | .local _ .vmem, ⟨7, _⟩ => ⟨S256x8192, .f32⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S8192_S4096_0 : S8192.Slices ![0] S4096
  concatenates_S4096_S4096_S8192_d0 : Shape.Concatenates [S4096, S4096] S8192 0
  shapeCasts_S8192_S1x8192 : S8192.ShapeCasts S1x8192
  inb_S256x2_S256x2_0_0 : ∀ a, (![0, 0] : Fin 2 → Nat) a + S256x2.size a ≤ S256x2.size a
  h_S256x2 : 0 < S256x2.numel
  reduces_S256x2_S256 : S256x2.Reduces [1] S256
  shapeCasts_S256_S256x1 : S256.ShapeCasts S256x1
  inb_S256x8192_S256x8192_0_0 : ∀ a, (![0, 0] : Fin 2 → Nat) a + S256x8192.size a ≤ S256x8192.size a
  h_S256x8192 : 0 < S256x8192.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  broadcasts_S256x1_S256x8192 : S256x1.Broadcasts S256x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S4096x2.size a
  hwx0_1 : ∀ i : grid0.Coords, EltTy.bits .f32 = 32 ∨ (Rect.block (s := S4096x2) S256x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x8192.size a ≤ S4096x8192.size a
  hwx0_4 : ∀ i : grid0.Coords, EltTy.bits .f32 = 32 ∨ (Rect.block (s := S4096x8192) S256x8192.size (cc0_transform_4 i) (hinb0_4 i)).WholeWords (EltTy.packing .f32)

variable [Facts₀]

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x2 : Shape := ⟨2, ![4096, 2]⟩
abbrev S4096x8192 : Shape := ⟨2, ![4096, 8192]⟩
abbrev S8192 : Shape := ⟨1, ![8192]⟩
abbrev S4096 : Shape := ⟨1, ![4096]⟩
abbrev S1x8192 : Shape := ⟨2, ![1, 8192]⟩
abbrev S_ : Shape := ⟨0, ![]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x2, .f32⟩
  | .hbm, ⟨1, _⟩ => ⟨S4096x8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S4096, .f32⟩
  | .hbm, ⟨7, _⟩ => ⟨S4096, .f32⟩
  | .hbm, ⟨8, _⟩ => ⟨S8192, .f32⟩
  | .hbm, ⟨9, _⟩ => ⟨S4096, .f32⟩
  | .hbm, ⟨10, _⟩ => ⟨S4096, .f32⟩
  | .hbm, ⟨11, _⟩ => ⟨S8192, .f32⟩
  | .hbm, ⟨12, _⟩ => ⟨S1x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S1x8192, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  slices_S8192_S4096_0 : S8192.Slices ![0] S4096
  concatenates_S4096_S4096_S8192_d0 : Shape.Concatenates [S4096, S4096] S8192 0
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  reducesTo_S4096x2_S4096_d1 : S4096x2.ReducesTo [1] S4096
  h_S_ : 0 < S_.numel
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)

variable [Facts₀]

class Facts : Prop extends Facts₀ where

variable [Facts]
-- ==== Proof.StepSpec.lean ====
/-
  One step of a diagonal linear recurrence, as a function of its four arrays.

  For a batch of 4096 rows and 8192 units, with a per-row input pair `u i 0, u i 1`, a state `s`,
  and two per-unit vectors `a` (the diagonal) and `b` (the input column), the new state is

      step u s a b (i, j) = s (i, j) * a j + (u (i, 0) + u (i, 1)) * b j

  read on the extended reals. Nothing below needs the entries to be finite: the only laws used are
  `0 + x = x` and the commutativity of addition, and both hold at the infinities too.
-/
import Idealize.ShloMosaic.PureOps.Ideal
import Idealize.ShloMosaic.PureOps.Ideal.Laws
import Idealize.ShloMosaic.Lib.ValueIdx

noncomputable section

namespace Cert.LinearStep

open Idealize.ShloMosaic Idealize.ShloMosaic.ValueIdx
open scoped BigOperators

/-- The new state at row `i 0` and unit `i 1`: the old state scaled by the diagonal entry of the unit, plus the row's
    summed input pair scaled by the unit's input-column entry. -/
def step (u : (⟨2, ![4096, 2]⟩ : Shape).Idx → EReal) (s : (⟨2, ![4096, 8192]⟩ : Shape).Idx → EReal)
    (a b : (⟨1, ![8192]⟩ : Shape).Idx → EReal) : (⟨2, ![4096, 8192]⟩ : Shape).Idx → EReal :=
  fun i => s i * a (ix1 (i 1)) + (∑ k : Fin 2, u (ix2 (i 0) k)) * b (ix1 (i 1))

/-- The same entry written the other way round — the input term first, its row sum started from zero — is the
    step's entry: `0 + x = x`, and addition of extended reals commutes. -/
theorem step_of_input_first (u : (⟨2, ![4096, 2]⟩ : Shape).Idx → EReal) (s : (⟨2, ![4096, 8192]⟩ : Shape).Idx → EReal)
    (a b : (⟨1, ![8192]⟩ : Shape).Idx → EReal) (i : (⟨2, ![4096, 8192]⟩ : Shape).Idx) :
    ((0 : EReal) + ∑ k : Fin 2, u (ix2 (i 0) k)) * b (ix1 (i 1)) + s i * a (ix1 (i 1)) = step u s a b i := by
  unfold step
  rw [zero_add, add_comm]

end Cert.LinearStep

end
-- ==== Proof.RefStep.lean ====
/-
  The reference computes the step.

  Its last stage adds `(row sum of the inputs) * b` to `state * a`, where `a` and `b` are each the first halves of two
  parameter vectors joined end to end, the row sum is taken from a zero initial value, and every broadcast reads
  the unit's column `i 1` of a joined vector or the row `i 0` of the summed inputs. Read at an index this is the
  step's entry with the two products in the other order.
-/
import proofs.«150522_j65867618452250_1_alg».proof.Proof.Gen.ReferenceIdeal.Read
import proofs.«150522_j65867618452250_1_alg».proof.Proof.StepSpec

noncomputable section

namespace Cert.ReferenceIdeal.RefValue

open Cert.ReferenceIdeal Cert.ReferenceIdeal.Read Idealize.ShloMosaic Idealize.ShloMosaic.ValueIdx Cert.LinearStep
open scoped BigOperators

/-- The reference's result stage, as a function of the six argument arrays, is the step of the inputs, the state
    and the two joined vectors (which are left as they are: both programs build them the same way). -/
theorem stage_eq_step (x0 : (⟨S4096x2, .f32⟩ : BufTy).Contents (Elt Ideal)) (x1 : (⟨S4096x8192, .f32⟩ : BufTy).Contents (Elt Ideal))
    (x2 x3 x4 x5 : (⟨S8192, .f32⟩ : BufTy).Contents (Elt Ideal)) :
    val_main_v15 (F := Ideal) x0 x1 x2 x3 x4 x5
      = step x0 x1 (val_main_v2 (F := Ideal) x2 x3) (val_main_v5 (F := Ideal) x4 x5) := by
  funext i
  -- a joined vector is read at the unit's column, through both of its broadcasts
  have ea : idx_main_v6 (idx_main_v7 i) = ix1 (i 1) := funext fun a => Fin.ext (by match a with | ⟨0, _⟩ => rfl)
  have eb : idx_main_v11 (idx_main_v13 i) = ix1 (i 1) := funext fun a => Fin.ext (by match a with | ⟨0, _⟩ => rfl)
  -- the summed inputs are read at the row, term `k` of the sum at column `k`
  have eu : ∀ k : Fin 2, idx_main_v9 (idx_main_v10 (idx_main_v12 i)) k = ix2 (i 0) k :=
    fun k => funext fun a => Fin.ext (by match a with | ⟨0, _⟩ => rfl | ⟨1, _⟩ => rfl)
  rw [val_main_v15_apply, val_main_v14_apply, val_main_v12_apply, val_main_v10_apply, val_main_v9_apply,
    val_main_v13_apply, val_main_v11_apply, val_main_v8_apply, val_main_v7_apply, val_main_v6_apply]
  simp only [ea, eb, eu, val_main_cst_apply, Ideal.ofBits_def, Ideal.ofBits_zero_f32, Ideal.mulf_def, Ideal.addf_def]
  exact step_of_input_first x0 x1 _ _ i

end Cert.ReferenceIdeal.RefValue

end
-- ==== Proof.KernelRows.lean ====
/-
  The two parameter rows the kernel's region is launched on.

  Before the region, the host joins the first halves of two parameter vectors end to end (twice: once for the
  diagonal, once for the input column) and reshapes each joined vector of length 8192 into one row [1, 8192].
  So the region finds, at column `j` of each row, entry `j` of the joined vector.
-/
import proofs.«150522_j65867618452250_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Rows

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The first half of `p` followed by the first half of `q`: a vector of length 8192 again. -/
abbrev joined (p q : (⟨S8192, .f32⟩ : BufTy).Contents (Elt F)) : (⟨S8192, .f32⟩ : BufTy).Contents (Elt F) :=
  concatenate S8192 0 [⟨S4096, extractStridedSlice S4096 ![0] p slices_S8192_S4096_0⟩,
    ⟨S4096, extractStridedSlice S4096 ![0] q slices_S8192_S4096_0⟩] concatenates_S4096_S4096_S8192_d0

/-- The diagonal's row as the region finds it: the joined halves of the third and fourth arguments, as one row. -/
theorem diag_row (c : Dev nD) : (V m c main_v6 : S1x8192.Idx → Elt F .f32)
    = shapeCast S1x8192 (joined (m ((c : Thread nD τ).loc main_arg2)) (m ((c : Thread nD τ).loc main_arg3))) shapeCasts_S8192_S1x8192 := by
  dsimp only [Gen.V, Gen.hostOps0]
  after_results
  rfl

/-- The input column's row as the region finds it: the joined halves of the fifth and sixth arguments, as one row. -/
theorem col_row (c : Dev nD) : (V m c main_v7 : S1x8192.Idx → Elt F .f32)
    = shapeCast S1x8192 (joined (m ((c : Thread nD τ).loc main_arg4)) (m ((c : Thread nD τ).loc main_arg5))) shapeCasts_S8192_S1x8192 := by
  dsimp only [Gen.V, Gen.hostOps0]
  after_results
  rfl

/-- A vector of length 8192 reshaped into one row, read at column `j` of that row, is the vector's entry `j`:
    the row-major position of (0, j) in [1, 8192] is `j`. -/
theorem row_apply {α : Type} (x : S8192.Idx → α) (y : S1x8192.Idx) (j : Fin 8192) (hj : (y 1).val = j.val) :
    shapeCast S1x8192 x shapeCasts_S8192_S1x8192 y = x (ix1 j) := by
  refine shapeCast_apply x shapeCasts_S8192_S1x8192 y (ix1 j) ?_
  rw [Shape.rowMajor_val_one, Shape.rowMajor_val_two]
  have h0 : (y 0).val < 1 := (y 0).isLt
  show j.val = (y 0).val * 8192 + (y 1).val
  omega

end Cert.KernelIdeal.Rows

end
-- ==== Proof.KernelBlock.lean ====
/-
  What the kernel's body leaves in its output block, as a formula.

  At one grid point the body loads a block `x0` of 256 state rows, the matching block `x1` of 256 input pairs, and the
  two parameter rows `x2`, `x3` of shape [1, 8192]; it sums each input pair, broadcasts, multiplies and adds, and stores
  the whole [256, 8192] block. Read on the extended reals, entry (r, j) of that block is

      x0 (r, j) * x2 (0, j) + (x1 (r, 0) + x1 (r, 1)) * x3 (0, j).

  The sum over the pair has no initial term: the reduction starts from the neutral element of addition.
-/
import proofs.«150522_j65867618452250_1_alg».proof.Proof.Gen.KernelIdeal.Value
import Idealize.ShloMosaic.PureOps.Ideal.Laws
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.TcCoe Idealize.SL.Sem
open Idealize.ShloMosaic.ValueIdx
open scoped BigOperators

/-- The offsets of every load and of the store are zero on both axes. -/
theorem zero_offsets : (![0, 0] : Fin 2 → Nat) = fun _ => 0 := funext fun a => by fin_cases a <;> rfl

/-- The sum of a block of input pairs along the pair axis, at row `r`, is the row's two entries added (whatever proofs
    the reduction carries that its format is a float's and its start is the neutral element). -/
theorem pair_sum_apply (x : FVec Ideal S256x2 .f32) (hφ : FKind.Formats .f32)
    (hacc : (0x00000000#32 : BitVec 32) = FKind.add.neutral .f32 hφ) (r : Fin 256) :
    multiReduction (F := Ideal) .add [1] S256 x 0x00000000#32 reduces_S256x2_S256 hφ hacc (ix1 r) = ∑ k : Fin 2, x (ix2 r k) := by
  refine (Ideal.multiReduction_add_single x 0x00000000#32 reduces_S256x2_S256 hφ hacc (ix1 r)).trans ?_
  refine Finset.sum_congr rfl fun k _ => ?_
  exact congrArg x (funext fun a => Fin.ext (by match a with | ⟨0, _⟩ => rfl | ⟨1, _⟩ => rfl))

/-- THE BLOCK: entry (r, j) of what the body stores, from the four loaded blocks. -/
theorem block_apply (x0 : Vec Ideal S256x8192 .f32) (x1 : Vec Ideal S256x2 .f32) (x2 x3 : Vec Ideal S1x8192 .f32)
    (r : Fin 256) (j : Fin 8192) :
    out0_4 x0 x1 x2 x3 (ix2 r j)
      = x0 (ix2 r j) * x2 (ix2 (0 : Fin 1) j) + (∑ k : Fin 2, x1 (ix2 r k)) * x3 (ix2 (0 : Fin 1) j) := by
  unfold out0_4
  refine (Value.canon4_eq _ _ _ _ (ix2 r j)).trans ?_
  simp only [View.ld_unit_zero (S := S256x8192) zero_offsets, View.ld_unit_zero (S := S256x2) zero_offsets,
    View.ld_unit_zero (S := S1x8192) zero_offsets]
  -- each operand is read where the block index's entry came from
  have e0 : Value.ix4_0 (ix2 r j) = ix2 r j := funext fun a => Fin.ext (by match a with | ⟨0, _⟩ => rfl | ⟨1, _⟩ => rfl)
  have e1 : Value.ix4_1 (ix2 r j) = ix2 (0 : Fin 1) j := funext fun a => Fin.ext (by match a with | ⟨0, _⟩ => rfl | ⟨1, _⟩ => rfl)
  have e2 : Value.ix4_2 (ix2 r j) = ix1 r := funext fun a => Fin.ext (by match a with | ⟨0, _⟩ => rfl)
  have e3 : Value.ix4_3 (ix2 r j) = ix2 (0 : Fin 1) j := funext fun a => Fin.ext (by match a with | ⟨0, _⟩ => rfl | ⟨1, _⟩ => rfl)
  show FloatOps.addf (FloatOps.mulf (x0 (Value.ix4_0 (ix2 r j))) (x2 (Value.ix4_1 (ix2 r j))))
      (FloatOps.mulf ((multiReduction (F := Ideal) .add [1] S256 x1 0x00000000#32 reduces_S256x2_S256 (.inl rfl) rfl) (Value.ix4_2 (ix2 r j)))
        (x3 (Value.ix4_3 (ix2 r j)))) = _
  rw [e0, e1, e2, e3]
  exact congrArg (fun z : EReal => x0 (ix2 r j) * x2 (ix2 (0 : Fin 1) j) + z * x3 (ix2 (0 : Fin 1) j))
    (pair_sum_apply x1 _ _ r)

end Cert.KernelIdeal.Block

end
-- ==== Proof.KernelArray.lean ====
/-
  From blocks to the array: the kernel's result is the step of its arguments.

  The grid has 16 points. Point `t` works on rows 256 t … 256 t + 255: its state block and its output block are those
  rows of the [4096, 8192] arrays, its input block those rows of the [4096, 2] inputs, and the two parameter rows are
  the same whole [1, 8192] row at every point. So what point `t` writes back is rows 256 t … 256 t + 255 of the step,
  and since the 16 row blocks tile the array (row `i` belongs to point `i / 256`) the array ends holding the step.
-/
import proofs.«150522_j65867618452250_1_alg».proof.Proof.Gen.KernelIdeal.Value
import proofs.«150522_j65867618452250_1_alg».proof.Proof.StepSpec
import proofs.«150522_j65867618452250_1_alg».proof.Proof.KernelRows
import proofs.«150522_j65867618452250_1_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.ValueIdx Cert.LinearStep Cert.KernelIdeal.Rows Cert.KernelIdeal.Block
open Idealize.ShloMosaic.Pipeline (Dat)
open scoped BigOperators

variable (m : (ℓ : Loc nD τ sig) → Buf (Elt Ideal) ℓ) (ρ : Dev nD → PrngReg)

/-- The step of the arguments as launched: inputs, state, and the two joined parameter vectors. -/
abbrev newState (c : Dev nD) : Buf (Elt Ideal) ((c : Thread nD τ).loc main_v8) :=
  step (m ((c : Thread nD τ).loc main_arg0)) (m ((c : Thread nD τ).loc main_arg1))
    (joined (m ((c : Thread nD τ).loc main_arg2)) (m ((c : Thread nD τ).loc main_arg3)))
    (joined (m ((c : Thread nD τ).loc main_arg4)) (m ((c : Thread nD τ).loc main_arg5)))

/-- The printed index maps, decided over the 16 points: the state and input blocks move down with the output's, one
    block of rows per point; no window moves along the columns; the parameter rows never move. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The state block at point `t`, entry (r, j), is the state at the row `r` of the point's block of rows, column `j`. -/
theorem state_block (c : Dev nD) (t : Fin cfg0.N) (r : Fin 256) (j : Fin 8192) (i : S4096x8192.Idx)
    (h0 : (i 0).val = win0_4.index t (0 : Fin 2) * 256 + r.val) (h1 : (i 1).val = j.val) :
    (iblk m c 0 t : Vec Ideal S256x8192 .f32) (ix2 r j) = (m ((c : Thread nD τ).loc main_arg1) : S4096x8192.Idx → EReal) i := by
  obtain ⟨e00, e01, -⟩ := idx_facts t
  unfold iblk
  rw [View.read_apply]
  refine (congrFun (V_main_arg1 m c) _).trans ?_
  refine congrArg (m ((c : Thread nD τ).loc main_arg1) : S4096x8192.Idx → EReal) ?_
  funext a
  apply Fin.ext
  match a with
  | ⟨0, _⟩ => show win0_0.index t (0 : Fin 2) * 256 + 1 * r.val = (i 0).val; omega
  | ⟨1, _⟩ => show win0_0.index t (1 : Fin 2) * 8192 + 1 * j.val = (i 1).val; omega

/-- The input block at point `t`, entry (r, k), is entry `k` of the input pair of that same row. -/
theorem inputs_block (c : Dev nD) (t : Fin cfg0.N) (r : Fin 256) (k : Fin 2) (i0 : Fin 4096)
    (h0 : i0.val = win0_4.index t (0 : Fin 2) * 256 + r.val) :
    (iblk m c 1 t : Vec Ideal S256x2 .f32) (ix2 r k) = (m ((c : Thread nD τ).loc main_arg0) : S4096x2.Idx → EReal) (ix2 i0 k) := by
  obtain ⟨-, -, e10, e11, -⟩ := idx_facts t
  unfold iblk
  rw [View.read_apply]
  refine (congrFun (V_main_arg0 m c) _).trans ?_
  refine congrArg (m ((c : Thread nD τ).loc main_arg0) : S4096x2.Idx → EReal) ?_
  funext a
  apply Fin.ext
  match a with
  | ⟨0, _⟩ => show win0_1.index t (0 : Fin 2) * 256 + 1 * r.val = i0.val; omega
  | ⟨1, _⟩ => show win0_1.index t (1 : Fin 2) * 2 + 1 * k.val = k.val; omega

/-- The diagonal's row at any point, column `j`, is entry `j` of the joined diagonal vector. -/
theorem diag_block (c : Dev nD) (t : Fin cfg0.N) (j j' : Fin 8192) (hj : j.val = j'.val) :
    (iblk m c 2 t : Vec Ideal S1x8192 .f32) (ix2 (0 : Fin 1) j)
      = joined (m ((c : Thread nD τ).loc main_arg2)) (m ((c : Thread nD τ).loc main_arg3)) (ix1 j') := by
  obtain ⟨-, -, -, -, e20, e21, -⟩ := idx_facts t
  unfold iblk
  rw [View.read_apply]
  refine (congrFun (diag_row m c) _).trans ?_
  refine row_apply _ _ j' ?_
  show win0_2.index t (1 : Fin 2) * 8192 + 1 * j.val = j'.val
  omega

/-- The input column's row at any point, column `j`, is entry `j` of the joined input-column vector. -/
theorem col_block (c : Dev nD) (t : Fin cfg0.N) (j j' : Fin 8192) (hj : j.val = j'.val) :
    (iblk m c 3 t : Vec Ideal S1x8192 .f32) (ix2 (0 : Fin 1) j)
      = joined (m ((c : Thread nD τ).loc main_arg4)) (m ((c : Thread nD τ).loc main_arg5)) (ix1 j') := by
  obtain ⟨-, -, -, -, -, -, e30, e31, -⟩ := idx_facts t
  unfold iblk
  rw [View.read_apply]
  refine (congrFun (col_row m c) _).trans ?_
  refine row_apply _ _ j' ?_
  show win0_3.index t (1 : Fin 2) * 8192 + 1 * j.val = j'.val
  omega

/-- A stored block's entry (r, j) is the step's entry at an array index `i`, once each of the four loaded blocks
    is known to hold, at the places the entry reads, what the step reads at `i`: the state at `i`, the two joined
    vectors at column `i 1`, and the input pair of row `i 0`. -/
theorem entry_eq (x0 : Vec Ideal S256x8192 .f32) (x1 : Vec Ideal S256x2 .f32) (x2 x3 : Vec Ideal S1x8192 .f32)
    (u : S4096x2.Idx → EReal) (s : S4096x8192.Idx → EReal) (a b : S8192.Idx → EReal)
    (r : Fin 256) (j : Fin 8192) (i : S4096x8192.Idx)
    (hs : x0 (ix2 r j) = s i) (ha : x2 (ix2 (0 : Fin 1) j) = a (ix1 (i 1))) (hb : x3 (ix2 (0 : Fin 1) j) = b (ix1 (i 1)))
    (hu : ∀ k : Fin 2, x1 (ix2 r k) = u (ix2 (i 0) k)) :
    x0 (ix2 r j) * x2 (ix2 (0 : Fin 1) j) + (∑ k : Fin 2, x1 (ix2 r k)) * x3 (ix2 (0 : Fin 1) j) = step u s a b i := by
  unfold step
  rw [hs, ha, hb, Finset.sum_congr rfl (fun k _ => hu k)]

/-- WHAT POINT `t` WRITES BACK is its block of rows of the step. -/
theorem flushed_eq (c : Dev nD) (t : Fin cfg0.N) :
    (dats m 0 c).flushed 4 t = ((cfg0.win 4).blk t).view.read (Elt Ideal) (newState m c) := by
  rw [Value.flushed4]
  funext y
  obtain ⟨r, j, rfl⟩ : ∃ (r : Fin 256) (j : Fin 8192), y = (ix2 r j : S256x8192.Idx) := ⟨y 0, y 1, eq_ix2 y⟩
  obtain ⟨-, -, -, -, -, -, -, -, e40, e41⟩ := idx_facts t
  show out0_4 (iblk m c 0 t) (iblk m c 1 t) (iblk m c 2 t) (iblk m c 3 t) (ix2 r j)
    = newState m c (((cfg0.win 4).blk t).view.emb (ix2 r j))
  refine (block_apply (iblk m c 0 t) (iblk m c 1 t) (iblk m c 2 t) (iblk m c 3 t) r j).trans ?_
  -- the array index under entry (r, j) of the point's output block
  have h0 : ((((cfg0.win 4).blk t).view.emb (ix2 r j) : S4096x8192.Idx) 0).val = win0_4.index t (0 : Fin 2) * 256 + r.val := by
    show win0_4.index t (0 : Fin 2) * 256 + 1 * r.val = _; omega
  have h1 : ((((cfg0.win 4).blk t).view.emb (ix2 r j) : S4096x8192.Idx) 1).val = j.val := by
    show win0_4.index t (1 : Fin 2) * 8192 + 1 * j.val = _; omega
  exact entry_eq (iblk m c 0 t) (iblk m c 1 t) (iblk m c 2 t) (iblk m c 3 t) _ _ _ _ r j _
    (state_block m c t r j _ h0 h1) (diag_block m c t j _ h1.symm) (col_block m c t j _ h1.symm)
    (fun k => inputs_block m c t r k _ h0)

/-- An index of the array is in point `t`'s block iff each coordinate is in the block's range on its axis. -/
theorem mem_blk (t : Fin cfg0.N) (i : S4096x8192.Idx) :
    i ∈ ((cfg0.win 4).blk t).view.set ↔ ∀ a : Fin 2, win0_4.index t a * S256x8192.size a ≤ (i a).val ∧ (i a).val < win0_4.index t a * S256x8192.size a + S256x8192.size a := by
  show i ∈ ((View.whole main_v8).slice (win0_4.rect t)).set ↔ _
  rw [View.set_slice_whole, Rect.mem_set_unit]
  exact Iff.rfl

/-- Every index of the array is in some point's block: row `i 0` belongs to point `i 0 / 256`. -/
theorem cover (i : S4096x8192.Idx) : ∃ t : Fin cfg0.N, (cfg0.win 4).flush t = true ∧ i ∈ ((cfg0.win 4).blk t).view.set := by
  have hi0 : (i 0).val < 4096 := (i 0).isLt
  have hi1 : (i 1).val < 8192 := (i 1).isLt
  have hN : grid0.N = 16 := N_0
  have ht : (i 0).val / 256 < grid0.N := by rw [hN]; omega
  obtain ⟨-, -, -, -, -, -, -, -, e40, e41⟩ := idx_facts ⟨(i 0).val / 256, ht⟩
  have e40' : win0_4.index ⟨(i 0).val / 256, ht⟩ (0 : Fin 2) = (i 0).val / 256 := e40
  refine ⟨⟨(i 0).val / 256, ht⟩, flush0_4 _, ?_⟩
  rw [mem_blk]
  intro a
  match a with
  | ⟨0, _⟩ =>
    show win0_4.index ⟨(i 0).val / 256, ht⟩ (0 : Fin 2) * 256 ≤ (i 0).val ∧ (i 0).val < win0_4.index ⟨(i 0).val / 256, ht⟩ (0 : Fin 2) * 256 + 256
    omega
  | ⟨1, _⟩ =>
    show win0_4.index ⟨(i 0).val / 256, ht⟩ (1 : Fin 2) * 8192 ≤ (i 1).val ∧ (i 1).val < win0_4.index ⟨(i 0).val / 256, ht⟩ (1 : Fin 2) * 8192 + 8192
    omega

/-- THE ARRAY after the run is the step of the arguments. -/
theorem final (c : Dev nD) : (dats m 0 c).arrAt 4 cfg0.N = newState m c :=
  (dats m 0 c).arrAt_eq_of_cover 4 (newState m c) (fun t _ => flushed_eq m c t) cover

/-- The kernel's run, read: every weakly fair execution ends with the result array at the step of the arguments, and
    the arguments as launched. -/
theorem run : θ_run defs (onTc (τ := τ) (main (F := Ideal))) ⟨m, fun _ => 0, ρ⟩ fun r => ∀ c : Dev nD,
      r.2.mem ((c : Thread nD τ).loc main_v8) = newState m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.lean ====
/-
  One step of a diagonal linear recurrence over a batch, tiled by rows, against its plain array form.

  Both programs take a batch of 4096 input pairs `u`, a state `s` of 4096 rows by 8192 units, and four parameter
  vectors of length 8192. Both first build the diagonal `a` (the first half of the first parameter vector followed by
  the first half of the second) and the input column `b` (the same from the third and fourth), and both return, twice,

      new (i, j) = s (i, j) * a j + (u (i, 0) + u (i, 1)) * b j.

  The tiled program computes it sixteen row blocks at a time: at block `t` it loads rows 256 t … 256 t + 255 of the
  state and of the inputs and the two parameter rows, sums each input pair along its axis, and stores the block. The
  plain program broadcasts everything to the full shape, takes the row sums from a zero initial value, and adds the
  two products in the other order.

  On the extended reals the two agree entry by entry with no condition on the entries: the plain form's `0 + x` is
  `x`, and addition commutes; nothing is distributed or cancelled, so the infinities need no care. The tiling is
  harmless because the sixteen row blocks cover the array and each is the matching rows of one function (the step)
  of the arguments.

  The modules: `StepSpec` states the step and the one law; `RefStep` reads the plain program's last stage at an index
  as the step; `KernelRows` reads the two parameter rows the tiled program is launched on; `KernelBlock` reads one
  stored block as a formula of its four loaded blocks; `KernelArray` goes from the blocks to the whole array. Below:
  the three frames, the (empty) list of idealizing rewrites, and the equality of the two results.
-/
import proofs.«150522_j65867618452250_1_alg».proof.Defs
import proofs.«150522_j65867618452250_1_alg».proof.Proof.Gen.Kernel
import proofs.«150522_j65867618452250_1_alg».proof.Proof.Gen.Kernel.Skeleton
import proofs.«150522_j65867618452250_1_alg».proof.Proof.Gen.Kernel.Launch
import proofs.«150522_j65867618452250_1_alg».proof.Proof.Gen.Kernel.Points
import proofs.«150522_j65867618452250_1_alg».proof.Proof.Gen.Kernel.Frame
import proofs.«150522_j65867618452250_1_alg».proof.Proof.Gen.KernelIdeal
import proofs.«150522_j65867618452250_1_alg».proof.Proof.Gen.KernelIdeal.Skeleton
import proofs.«150522_j65867618452250_1_alg».proof.Proof.Gen.KernelIdeal.Launch
import proofs.«150522_j65867618452250_1_alg».proof.Proof.Gen.KernelIdeal.Points
import proofs.«150522_j65867618452250_1_alg».proof.Proof.Gen.KernelIdeal.Frame
import proofs.«150522_j65867618452250_1_alg».proof.Proof.Gen.ReferenceIdeal
import proofs.«150522_j65867618452250_1_alg».proof.Proof.Gen.KernelIdeal.Value
import proofs.«150522_j65867618452250_1_alg».proof.Proof.Gen.ReferenceIdeal.Run
import proofs.«150522_j65867618452250_1_alg».proof.Proof.Gen.ReferenceIdeal.Read
import proofs.«150522_j65867618452250_1_alg».proof.Proof.Gen.Pre_finite_inputs
import proofs.«150522_j65867618452250_1_alg».proof.Proof.RefStep
import proofs.«150522_j65867618452250_1_alg».proof.Proof.KernelArray
import Idealize.ShloMosaic.Adequacy
import Idealize.ShloMosaic.Init

noncomputable section

namespace Cert.Proof

open Idealize.ShloMosaic Idealize.SL.Sem

/-- The tiled program, word for word: every execution ends, nothing faults, the arguments are as launched. -/
theorem frame_tiled : Cert.frame_Kernel := fun m ρ _ => Cert.Kernel.Gen.frame m ρ

/-- The same of the tiled program read on the extended reals. -/
theorem frame_tiled_ideal : Cert.frame_KernelIdeal := fun m ρ _ => Cert.KernelIdeal.Gen.frame m ρ

/-- The plain program read on the extended reals: its run, with the result forgotten. -/
theorem frame_plain_ideal : Cert.frame_ReferenceIdeal := fun m ρ _ =>
  (θ_run Cert.ReferenceIdeal.defs _ _).mono (fun _ h c => (h c).2.2) (Cert.ReferenceIdeal.Value.run (F := Ideal) m ρ)

/-- Reading the tiled program on the extended reals rewrote none of its operations, so there is nothing to justify. -/
theorem preserves : Cert.preserves_Kernel_KernelIdeal := trivial

/-- From memories that agree on the six arguments, both programs end with both results at the step of the arguments:
    the tiled one by its blocks covering the array, the plain one by its last stage read at an index; the two
    spellings of the joined parameter vectors are the same operations on the same arguments. -/
theorem algebraic : Cert.algebraic_KernelIdeal_ReferenceIdeal := by
  intro m ρ m' ρ' _ hagree
  refine ⟨fun c => Cert.KernelIdeal.Whole.newState m c, fun c => Cert.KernelIdeal.Whole.newState m c, ?_, ?_⟩
  · exact (θ_run Cert.KernelIdeal.defs _ _).mono (fun _ h c => ⟨(h c).1, (h c).1, (h c).2⟩)
      (Cert.KernelIdeal.Whole.run m ρ)
  · refine (θ_run Cert.ReferenceIdeal.defs _ _).mono (fun r h c => ?_)
      (Cert.ReferenceIdeal.Value.run (F := Ideal) m' ρ')
    have hv : r.2.mem ((c.tc : Thread Cert.ReferenceIdeal.nD Cert.ReferenceIdeal.τ).loc Cert.ReferenceIdeal.main_v15)
        = Cert.KernelIdeal.Whole.newState m c := by
      rw [(h c).1, Cert.ReferenceIdeal.Read.val_main_v15_eq, Cert.ReferenceIdeal.RefValue.stage_eq_step,
        (hagree c).1, (hagree c).2.1, (hagree c).2.2.1, (hagree c).2.2.2.1, (hagree c).2.2.2.2.1, (hagree c).2.2.2.2.2]
      rfl
    exact ⟨hv, hv, (h c).2.2⟩

theorem claim : Cert.Claim :=
  ⟨Cert.Kernel.Gen.facts, Cert.KernelIdeal.Gen.facts, Cert.ReferenceIdeal.Gen.facts, Cert.Pre_finite_inputs.Gen.facts,
    frame_tiled, frame_tiled_ideal, frame_plain_ideal, preserves, algebraic⟩

end Cert.Proof

end
